-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S256x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S1x128 : Shape := ⟨2, ![1, 128]⟩
abbrev S8000x128 : Shape := ⟨2, ![8000, 128]⟩
abbrev S5000x128 : Shape := ⟨2, ![5000, 128]⟩

abbrev nBuf : Space → Nat
  | .hbm => 34
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .bf16⟩
  | .hbm, ⟨22, _⟩ => ⟨S128x128, .f32⟩
  | .hbm, ⟨23, _⟩ => ⟨S128x128, .f32⟩
  | .hbm, ⟨24, _⟩ => ⟨S1x128, .f32⟩
  | .hbm, ⟨25, _⟩ => ⟨S1x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S1x128, .f32⟩
  | .hbm, ⟨33, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S800000x128.size a
  hwx0_7 : ∀ i : grid0.Coords, EltTy.bits .f32 = 32 ∨ (Rect.block (s := S800000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v7) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x256, .f32⟩
  | .hbm, ⟨22, _⟩ => ⟨S800000x128, .f32⟩
  | .hbm, ⟨23, _⟩ => ⟨S1x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S800000x128, .f32⟩
  | .hbm, ⟨28, _⟩ => ⟨S800000x128, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run with its RESULT named.

  The program is four segments: host operations (the gather of source-node rows and the slicing of the first
  layer's weight), the edge-message kernel over 100 blocks of 8000 edges, host operations (the scatter-sum of the
  messages into their destination nodes), and the node-update kernel over 10 blocks of 5000 nodes. Every weakly fair
  execution runs through the four in order; at the end every buffer that outlives the kernels holds the contents the
  segments' fold `W4` names. The frame certificate keeps only the argument buffers from that final reading; here the
  result buffer (the node-update kernel's output array) is kept as well, at the fold's contents `W4 … main_v18`, which
  the value modules then open.
-/
import proofs.«132730_j24988119728418_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last boundary's contents and every argument buffer as launched: the four segments run in
    order, and the last thread state — every buffer that outlives the kernels at `W4` — is read against the final
    memory. -/
theorem run_value : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.KRun

end
-- ==== Proof.Spec.lean ====
/-
  The mathematics both programs compute, one output row at a time, over the extended reals.

  A message-passing graph convolution: every edge carries a message
      m_e = relu (h_src(e) · W_top + x_e · W_bot + b_a) · W_o + b_o
  (two dense layers on the 256 inputs [h_src(e), x_e], the first layer's weight split into the rows that meet the
  gathered node features and the rows that meet the edge features), the messages are summed into their destination
  nodes, and every node's new feature is
      relu ((agg_v + x_v) · W_a + b_a) · W_o + b_o .
  Here each dense layer is written for ONE row: the inputs are the row's 128 entries, a weight is a function of
  (input, output) and a bias a function of the output. The only law needed between the two programs is that a sum
  over 256 inputs is the sum over the first 128 plus the sum over the last 128 — associativity and commutativity of
  addition, which hold on the extended reals without any finiteness assumption.
-/
import Idealize.ShloMosaic.PureOps.Ideal
import Mathlib.Algebra.BigOperators.Fin
import Mathlib.Data.EReal.Basic

noncomputable section

namespace Cert.GraphConv

open Idealize.ShloMosaic

/-- The float zero that `relu` compares with, as both programs spell it (never evaluated: the same word on both sides). -/
def zero32 : EReal := Ideal.ofBits .f32 0x00000000#32

/-- One edge's message at output `q`, from the source node's row `h`, the edge's row `e`, the first layer's two weight
    halves `Wt`, `Wb` and bias `ba`, and the second layer's weight `Wo` and bias `bo`. -/
def edgeRow (h e : Fin 128 → EReal) (Wt Wb : Fin 128 → Fin 128 → EReal) (ba : Fin 128 → EReal)
    (Wo : Fin 128 → Fin 128 → EReal) (bo : Fin 128 → EReal) (q : Fin 128) : EReal :=
  (∑ k : Fin 128, max ((∑ j : Fin 128, h j * Wt j k) + (∑ j : Fin 128, e j * Wb j k) + ba k) zero32 * Wo k q) + bo q

/-- The same message with the first layer as ONE sum over the 256 concatenated inputs `x` and the whole weight `W`. -/
def edgeRowCat (x : Fin 256 → EReal) (W : Fin 256 → Fin 128 → EReal) (ba : Fin 128 → EReal)
    (Wo : Fin 128 → Fin 128 → EReal) (bo : Fin 128 → EReal) (q : Fin 128) : EReal :=
  (∑ k : Fin 128, max ((∑ j : Fin 256, x j * W j k) + ba k) zero32 * Wo k q) + bo q

/-- One node's new feature at output `q`, from its aggregated messages `a`, its own row `x`, and the two layers. -/
def nodeRow (a x : Fin 128 → EReal) (Wa : Fin 128 → Fin 128 → EReal) (ba : Fin 128 → EReal)
    (Wo : Fin 128 → Fin 128 → EReal) (bo : Fin 128 → EReal) (q : Fin 128) : EReal :=
  (∑ k : Fin 128, max ((∑ j : Fin 128, (a j + x j) * Wa j k) + ba k) zero32 * Wo k q) + bo q

/-- A sum over 256 indices is the sum over the first 128 plus the sum over the last 128. -/
theorem sum_split (f : Fin 256 → EReal) :
    ∑ j : Fin 256, f j = (∑ j : Fin 128, f (Fin.castAdd 128 j)) + ∑ j : Fin 128, f (Fin.natAdd 128 j) :=
  Fin.sum_univ_add (M := EReal) (a := 128) (b := 128) f

/-- The concatenated first layer is the split one: the first 128 inputs meet the weight's first 128 rows, the last
    128 its last 128 rows. -/
theorem edgeRowCat_eq (x : Fin 256 → EReal) (W : Fin 256 → Fin 128 → EReal) (ba : Fin 128 → EReal)
    (Wo : Fin 128 → Fin 128 → EReal) (bo : Fin 128 → EReal) (q : Fin 128) :
    edgeRowCat x W ba Wo bo q
      = edgeRow (fun j => x (Fin.castAdd 128 j)) (fun j => x (Fin.natAdd 128 j))
          (fun j k => W (Fin.castAdd 128 j) k) (fun j k => W (Fin.natAdd 128 j) k) ba Wo bo q := by
  unfold edgeRowCat edgeRow
  refine congrArg (· + bo q) (Finset.sum_congr rfl fun k _ => ?_)
  rw [sum_split]

end Cert.GraphConv

end
-- ==== Proof.HostK.lean ====
/-
  What the two kernels find in their operand arrays, as functions of the program's arguments.

  Before the edge-message kernel the host gathers the source node's row for every edge (from the node features, after
  wrapping a negative index by the number of nodes), cuts the first layer's 256×128 weight into its first and last 128
  rows, and reshapes the two biases to one row each. Between the kernels it sums the messages into their destination
  nodes (a scatter-add into zeros) and reshapes the second layer pair's biases. Every argument array is still as
  launched when a kernel reads it. On the extended reals a change of float format is the identity, so the gathered
  rows are rows of the node features themselves.
-/
import proofs.«132730_j24988119728418_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The gather's index operand, from the edge list's source column: a negative index is wrapped by the number of
    nodes, and the column becomes an 800000×1 array. -/
def srcIdx (x2 : (⟨S800000, .i32⟩ : BufTy).Contents (Elt Ideal)) : (⟨S800000x1, .i32⟩ : BufTy).Contents (Elt Ideal) :=
  broadcastInDim S800000x1 ![0] bcast_S800000_S800000x1_0
    (select (cmpi .slt x2 (broadcastInDim S800000 ![] bcast_S_S800000 (constantI S_ 32 0#32)))
      (addi x2 (broadcastInDim S800000 ![] bcast_S_S800000 (constantI S_ 32 50000#32))) x2)

/-! ## The arguments are as launched at both kernels' entries -/

/-- After the first host stretch an argument buffer holds its launch contents (no operation writes it). -/
theorem W1_arg0 (c : Dev nD) : W1 m ρ c (Proc.devRef .tc main_arg0) = m ((c : Thread nD τ).loc main_arg0) := by
  show StableHlo.after hostOps0 (W0 m ρ c) (Proc.devRef .tc main_arg0) = _; after_results <;> rfl
theorem W1_arg3 (c : Dev nD) : W1 m ρ c (Proc.devRef .tc main_arg3) = m ((c : Thread nD τ).loc main_arg3) := by
  show StableHlo.after hostOps0 (W0 m ρ c) (Proc.devRef .tc main_arg3) = _; after_results <;> rfl
theorem W1_arg8 (c : Dev nD) : W1 m ρ c (Proc.devRef .tc main_arg8) = m ((c : Thread nD τ).loc main_arg8) := by
  show StableHlo.after hostOps0 (W0 m ρ c) (Proc.devRef .tc main_arg8) = _; after_results <;> rfl
theorem W1_arg9 (c : Dev nD) : W1 m ρ c (Proc.devRef .tc main_arg9) = m ((c : Thread nD τ).loc main_arg9) := by
  show StableHlo.after hostOps0 (W0 m ρ c) (Proc.devRef .tc main_arg9) = _; after_results <;> rfl
theorem W1_arg10 (c : Dev nD) : W1 m ρ c (Proc.devRef .tc main_arg10) = m ((c : Thread nD τ).loc main_arg10) := by
  show StableHlo.after hostOps0 (W0 m ρ c) (Proc.devRef .tc main_arg10) = _; after_results <;> rfl
theorem W1_arg11 (c : Dev nD) : W1 m ρ c (Proc.devRef .tc main_arg11) = m ((c : Thread nD τ).loc main_arg11) := by
  show StableHlo.after hostOps0 (W0 m ρ c) (Proc.devRef .tc main_arg11) = _; after_results <;> rfl

/-- The edge-message kernel writes only its output array, so an argument buffer is unchanged across it. -/
theorem W2_arg0 (c : Dev nD) : W2 m ρ c (Proc.devRef .tc main_arg0) = m ((c : Thread nD τ).loc main_arg0) :=
  (W2_of_ne m ρ c main_arg0 (by decide)).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)

/-! ## The edge-message kernel's operand arrays -/

/-- The gathered source rows: the node features' rows at the wrapped source indices. -/
theorem V1_v7 (c : Dev nD) :
    (V1 m ρ c main_v7 : S800000x128.Idx → EReal)
      = Host.gather gather_S50000x128_S800000x1_S800000x128_1_0_n_n_0_1_1128
          (m ((c : Thread nD τ).loc main_arg0) : S50000x128.Idx → EReal) (srcIdx (m ((c : Thread nD τ).loc main_arg2))) := by
  show StableHlo.after hostOps0 (W0 m ρ c) (Proc.devRef .tc main_v7) = _; after_results <;> rfl
/-- The edge features, as launched. -/
theorem V1_arg1 (c : Dev nD) : V1 m ρ c main_arg1 = m ((c : Thread nD τ).loc main_arg1) := by
  show StableHlo.after hostOps0 (W0 m ρ c) (Proc.devRef .tc main_arg1) = _; after_results <;> rfl
/-- The second layer's weight, as launched. -/
theorem V1_arg6 (c : Dev nD) : V1 m ρ c main_arg6 = m ((c : Thread nD τ).loc main_arg6) := by
  show StableHlo.after hostOps0 (W0 m ρ c) (Proc.devRef .tc main_arg6) = _; after_results <;> rfl
/-- The first layer's weight, rows 0 … 127. -/
theorem V1_v8 (c : Dev nD) :
    V1 m ρ c main_v8 = extractStridedSlice S128x128 ![0, 0] (m ((c : Thread nD τ).loc main_arg4)) slices_S256x128_S128x128_0_0 := by
  show StableHlo.after hostOps0 (W0 m ρ c) (Proc.devRef .tc main_v8) = _; after_results <;> rfl
/-- The first layer's weight, rows 128 … 255. -/
theorem V1_v9 (c : Dev nD) :
    V1 m ρ c main_v9 = extractStridedSlice S128x128 ![128, 0] (m ((c : Thread nD τ).loc main_arg4)) slices_S256x128_S128x128_128_0 := by
  show StableHlo.after hostOps0 (W0 m ρ c) (Proc.devRef .tc main_v9) = _; after_results <;> rfl
/-- The first layer's bias as one row. -/
theorem V1_v10 (c : Dev nD) :
    (V1 m ρ c main_v10 : S1x128.Idx → EReal) = shapeCast S1x128 (m ((c : Thread nD τ).loc main_arg5) : S128.Idx → EReal) shapeCasts_S128_S1x128 := by
  show StableHlo.after hostOps0 (W0 m ρ c) (Proc.devRef .tc main_v10) = _; after_results <;> rfl
/-- The second layer's bias as one row. -/
theorem V1_v11 (c : Dev nD) :
    (V1 m ρ c main_v11 : S1x128.Idx → EReal) = shapeCast S1x128 (m ((c : Thread nD τ).loc main_arg7) : S128.Idx → EReal) shapeCasts_S128_S1x128 := by
  show StableHlo.after hostOps0 (W0 m ρ c) (Proc.devRef .tc main_v11) = _; after_results <;> rfl

/-! ## The node-update kernel's operand arrays -/

/-- The aggregated messages: the edge-message kernel's output array summed into the destination nodes. -/
theorem V3_v15 (c : Dev nD) :
    (V3 m ρ c main_v15 : S50000x128.Idx → EReal)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (m ((c : Thread nD τ).loc main_arg3)))
          (W2 m ρ c (Proc.devRef .tc main_v12) : S800000x128.Idx → EReal) := by
  show StableHlo.after hostOps1 (W2 m ρ c) (Proc.devRef .tc main_v15) = _; after_results; rw [W2_arg3] <;> rfl
/-- The node features, as launched. -/
theorem V3_arg0 (c : Dev nD) : V3 m ρ c main_arg0 = m ((c : Thread nD τ).loc main_arg0) := by
  show StableHlo.after hostOps1 (W2 m ρ c) (Proc.devRef .tc main_arg0) = _; after_results; exact W2_arg0 m ρ c
theorem V3_arg8 (c : Dev nD) : V3 m ρ c main_arg8 = m ((c : Thread nD τ).loc main_arg8) := by
  show StableHlo.after hostOps1 (W2 m ρ c) (Proc.devRef .tc main_arg8) = _; after_results; exact W2_arg8 m ρ c
theorem V3_arg10 (c : Dev nD) : V3 m ρ c main_arg10 = m ((c : Thread nD τ).loc main_arg10) := by
  show StableHlo.after hostOps1 (W2 m ρ c) (Proc.devRef .tc main_arg10) = _; after_results; exact W2_arg10 m ρ c
/-- The node layers' biases as one row each. -/
theorem V3_v16 (c : Dev nD) :
    (V3 m ρ c main_v16 : S1x128.Idx → EReal) = shapeCast S1x128 (m ((c : Thread nD τ).loc main_arg9) : S128.Idx → EReal) shapeCasts_S128_S1x128 := by
  show StableHlo.after hostOps1 (W2 m ρ c) (Proc.devRef .tc main_v16) = _; after_results; rw [W2_arg9] <;> rfl
theorem V3_v17 (c : Dev nD) :
    (V3 m ρ c main_v17 : S1x128.Idx → EReal) = shapeCast S1x128 (m ((c : Thread nD τ).loc main_arg11) : S128.Idx → EReal) shapeCasts_S128_S1x128 := by
  show StableHlo.after hostOps1 (W2 m ρ c) (Proc.devRef .tc main_v17) = _; after_results; rw [W2_arg11] <;> rfl

/-! ## The cut weight and the reshaped biases, read at an index -/

/-- Row `j` of the weight's first half is row `j` of the weight. -/
theorem slice_top (W : S256x128.Idx → EReal) (j k : Fin 128) :
    extractStridedSlice S128x128 ![0, 0] W slices_S256x128_S128x128_0_0 (ix2 j k) = W (ix2 (Fin.castAdd 128 j) k) :=
  extractStridedSlice_apply _ W _ (ix2 j k) (ix2 (Fin.castAdd 128 j) k) fun a => by
    match a with
    | ⟨0, _⟩ => show j.val = 0 + j.val; omega
    | ⟨1, _⟩ => show k.val = 0 + k.val; omega
/-- Row `j` of the weight's second half is row `128 + j` of the weight. -/
theorem slice_bot (W : S256x128.Idx → EReal) (j k : Fin 128) :
    extractStridedSlice S128x128 ![128, 0] W slices_S256x128_S128x128_128_0 (ix2 j k) = W (ix2 (Fin.natAdd 128 j) k) :=
  extractStridedSlice_apply _ W _ (ix2 j k) (ix2 (Fin.natAdd 128 j) k) fun a => by
    match a with
    | ⟨0, _⟩ => show 128 + j.val = 128 + j.val; rfl
    | ⟨1, _⟩ => show k.val = 0 + k.val; omega
/-- A bias reshaped to one row, read in that row. -/
theorem bias_row (b : S128.Idx → EReal) (k : Fin 128) :
    shapeCast S1x128 b shapeCasts_S128_S1x128 (ix2 (0 : Fin 1) k) = b (ix1 k) :=
  shapeCast_a_1a_apply b shapeCasts_S128_S1x128 0 k

end Cert.KernelIdeal.HostValue

end
-- ==== Proof.Edge.lean ====
/-
  The value of the edge-message region of the idealized kernel program, over the extended reals.

  The region walks 100 points; at point `t` it reads rows `8000 t … 8000 t + 7999` of the gathered node rows and of the
  edge rows, the two halves of the first layer's weight, its bias row, the second layer's weight and its bias row (each
  of these five whole, at every point), and writes rows `8000 t … 8000 t + 7999` of the message array. At the ideal
  values a narrowing of the float format is the identity and a product into the zero accumulator is the plain sum, so
  the body's result at row `p`, column `q` of its block is
      (∑ k, max ((∑ j, h j * Wt j k) + (∑ j, e j * Wb j k) + ba k) 0 * Wo k q) + bo q
  with `h`, `e` row `p` of the two input blocks: `Cert.GraphConv.edgeRow` (`pay_at`). Each block is the array read where
  the point's rectangle says (`blk0_at` … `blk6_at`), so what point `t` writes back is block `t` of ONE function of the
  seven arrays (`edgeArr`, `flushed_eq`); the 100 blocks cover the array, row `r` lying in block `r / 8000` (`cover`);
  hence the array the region leaves is that function (`edge_final`). All of it for an arbitrary valuation `V` of the
  buffers at the region's entry.
-/
import proofs.«132730_j24988119728418_2_alg».proof.Proof.Gen.KernelIdeal.Frame
import proofs.«132730_j24988119728418_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeValue

open Cert.KernelIdeal Cert.KernelIdeal.Gen Idealize.ShloMosaic Idealize.ShloMosaic.TcCoe Idealize.SL.Sem Idealize.ShloMosaic.ValueIdx
open Idealize.ShloMosaic.Pipeline (Dat)

/-! ## One product of the body: a row of the left operand against a column of the right -/

/-- The left operand is read at the output's row … -/
theorem lhs_row (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- … and at the contraction index as its column; -/
theorem lhs_contr (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- the right operand at the contraction index as its row … -/
theorem rhs_contr (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- … and at the output's column. -/
theorem rhs_col (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Into the zero accumulator, the product at `(p, q)` is the sum over `k` of row `p` of the left operand against
    column `q` of the right. -/
theorem matmul_at (l : FVec Ideal S8000x128 .bf16) (r : FVec Ideal S128x128 .bf16) (p : Fin 8000) (q : Fin 128) :
    (matmul dot_S8000x128_S128x128_S8000x128_1_0_0_1_n_n none l r (constant (F := Ideal) S8000x128 .f32 0x00000000#32) : FVec Ideal S8000x128 .f32) (ix2 p q)
      = ∑ k : Fin 128, l (ix2 p k) * r (ix2 k q) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhs_row _ _
    | ⟨1, _⟩ => exact (lhs_contr _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The body's arithmetic at one entry -/

/-- A bias row broadcast over the block's rows reads its one row. -/
theorem bias_at (v : Vec Ideal S1x128 .f32) (p : Fin 8000) (q : Fin 128) :
    (broadcastTo S8000x128 (shapeCast S1x128 v shapeCasts_S1x128_S1x128) broadcasts_S1x128_S8000x128 : S8000x128.Idx → EReal) (ix2 p q)
      = (v : S1x128.Idx → EReal) (ix2 (0 : Fin 1) q) := by
  rw [shapeCast_self]
  exact broadcastTo_1b_ab_apply v broadcasts_S1x128_S8000x128 p q

/-- The body's result at row `p`, column `q` of its block is the edge message of row `p` of the two input blocks. -/
theorem pay_at (x0 : Vec Ideal S8000x128 .bf16) (x1 : Vec Ideal S8000x128 .f32) (x2 : Vec Ideal S128x128 .f32) (x3 : Vec Ideal S128x128 .f32)
    (x4 : Vec Ideal S1x128 .f32) (x5 : Vec Ideal S128x128 .f32) (x6 : Vec Ideal S1x128 .f32) (p : Fin 8000) (q : Fin 128) :
    (k0_pay1 x0 x1 x2 x3 x4 x5 x6 : S8000x128.Idx → EReal) (ix2 p q)
      = Cert.GraphConv.edgeRow (fun j => (x0 : S8000x128.Idx → EReal) (ix2 p j)) (fun j => (x1 : S8000x128.Idx → EReal) (ix2 p j))
          (fun j k => (x2 : S128x128.Idx → EReal) (ix2 j k)) (fun j k => (x3 : S128x128.Idx → EReal) (ix2 j k))
          (fun k => (x4 : S1x128.Idx → EReal) (ix2 (0 : Fin 1) k)) (fun j k => (x5 : S128x128.Idx → EReal) (ix2 j k))
          (fun k => (x6 : S1x128.Idx → EReal) (ix2 (0 : Fin 1) k)) q := by
  unfold k0_pay1 Cert.GraphConv.edgeRow
  dsimp only
  refine (addf_apply _ _ _).trans ?_
  refine congrArg₂ (· + ·) ((matmul_at _ _ p q).trans (Finset.sum_congr rfl fun k _ => ?_)) (bias_at x6 p q)
  refine congrArg (· * (x5 : S128x128.Idx → EReal) (ix2 k q)) ?_
  show maximumf (F := Ideal) _ _ (ix2 p k) = _
  refine (maximumf_apply _ _ _).trans ?_
  refine congrArg₂ max ?_ rfl
  refine (addf_apply _ _ _).trans ?_
  refine congrArg₂ (· + ·) ?_ (bias_at x4 p k)
  refine (addf_apply _ _ _).trans ?_
  refine congrArg₂ (· + ·) ?_ ?_
  · rw [shapeCast_self, shapeCast_self]
    exact matmul_at _ _ p k
  · rw [shapeCast_self]
    exact matmul_at _ _ p k

/-! ## From the blocks to the array -/

variable (V : (c : Dev nD) → (b : Ref sig .tc) → Buf (Elt Ideal) ((c : Thread nD τ).loc b))

/-- The edge-message array as ONE function of the seven arrays the region reads: entry `(r, q)` is the message of row `r`
    of the two long arrays at output `q`. -/
def edgeArr (a7 : S800000x128.Idx → EReal) (a1 : S800000x128.Idx → EReal) (w8 : S128x128.Idx → EReal) (w9 : S128x128.Idx → EReal)
    (b10 : S1x128.Idx → EReal) (w6 : S128x128.Idx → EReal) (b11 : S1x128.Idx → EReal) : S800000x128.Idx → EReal :=
  fun i => Cert.GraphConv.edgeRow (fun j => a7 (ix2 (i 0 : Fin 800000) j)) (fun j => a1 (ix2 (i 0 : Fin 800000) j))
    (fun j k => w8 (ix2 j k)) (fun j k => w9 (ix2 j k)) (fun k => b10 (ix2 (0 : Fin 1) k)) (fun j k => w6 (ix2 j k))
    (fun k => b11 (ix2 (0 : Fin 1) k)) (i 1 : Fin 128)

/-- The body's one store and its loads are at zero offsets. -/
theorem hz : (![0, 0] : Fin 2 → Nat) = fun _ => 0 := funext fun a => by fin_cases a <;> rfl

/-- The windows' block indices over the grid: the two long inputs and the output are at block `t` of their rows, the
    weights and biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Block `t` of the gathered node rows is rows `8000 t … 8000 t + 7999` of the array. -/
theorem blk0_at (c : Dev nD) (t : Fin cfg0.N) (p : Fin 8000) (j : Fin 128) (r : Fin 800000) (hr : r.val = 8000 * t.val + p.val) :
    (iblk0 V c 0 t : S8000x128.Idx → EReal) (ix2 p j) = (V c main_v7 : S800000x128.Idx → EReal) (ix2 r j) := by
  obtain ⟨e0, e1, -⟩ := idx_facts t
  unfold iblk0
  rw [View.read_apply]
  show (V c main_v7 : S800000x128.Idx → EReal) _ = V c main_v7 _
  refine congrArg _ (funext fun a => Fin.ext ?_)
  match a with
  | ⟨0, _⟩ => show win0_0.index t (0 : Fin 2) * 8000 + 1 * p.val = r.val; omega
  | ⟨1, _⟩ => show win0_0.index t (1 : Fin 2) * 128 + 1 * j.val = j.val; omega

/-- The message depends on its seven operands only through their entries. -/
theorem edgeRow_congr {h h' e e' : Fin 128 → EReal} {Wt Wt' Wb Wb' : Fin 128 → Fin 128 → EReal} {ba ba' : Fin 128 → EReal}
    {Wo Wo' : Fin 128 → Fin 128 → EReal} {bo bo' : Fin 128 → EReal}
    (h0 : ∀ j, h j = h' j) (h1 : ∀ j, e j = e' j) (h2 : ∀ j k, Wt j k = Wt' j k) (h3 : ∀ j k, Wb j k = Wb' j k)
    (h4 : ∀ k, ba k = ba' k) (h5 : ∀ j k, Wo j k = Wo' j k) (h6 : ∀ k, bo k = bo' k) (q : Fin 128) :
    Cert.GraphConv.edgeRow h e Wt Wb ba Wo bo q = Cert.GraphConv.edgeRow h' e' Wt' Wb' ba' Wo' bo' q := by
  obtain rfl : h = h' := funext h0
  obtain rfl : e = e' := funext h1
  obtain rfl : Wt = Wt' := funext fun j => funext (h2 j)
  obtain rfl : Wb = Wb' := funext fun j => funext (h3 j)
  obtain rfl : ba = ba' := funext h4
  obtain rfl : Wo = Wo' := funext fun j => funext (h5 j)
  obtain rfl : bo = bo' := funext h6
  rfl

/-- The edge-message array at an index whose coordinates are `r` and `q`. -/
theorem edgeArr_at (a7 : S800000x128.Idx → EReal) (a1 : S800000x128.Idx → EReal) (w8 : S128x128.Idx → EReal) (w9 : S128x128.Idx → EReal)
    (b10 : S1x128.Idx → EReal) (w6 : S128x128.Idx → EReal) (b11 : S1x128.Idx → EReal) (i : S800000x128.Idx) (r : Fin 800000) (q : Fin 128)
    (hr : (i 0).val = r.val) (hq : (i 1).val = q.val) :
    edgeArr a7 a1 w8 w9 b10 w6 b11 i
      = Cert.GraphConv.edgeRow (fun j => a7 (ix2 r j)) (fun j => a1 (ix2 r j)) (fun j k => w8 (ix2 j k)) (fun j k => w9 (ix2 j k))
          (fun k => b10 (ix2 (0 : Fin 1) k)) (fun j k => w6 (ix2 j k)) (fun k => b11 (ix2 (0 : Fin 1) k)) q := by
  obtain rfl : i = ix2 r q := funext fun a => Fin.ext (by
    match a with
    | ⟨0, _⟩ => exact hr
    | ⟨1, _⟩ => exact hq)
  rfl

/-- Block `t` of the edge rows is rows `8000 t … 8000 t + 7999` of the array. -/
theorem blk1_at (c : Dev nD) (t : Fin cfg0.N) (p : Fin 8000) (j : Fin 128) (r : Fin 800000) (hr : r.val = 8000 * t.val + p.val) :
    (iblk0 V c 1 t : S8000x128.Idx → EReal) (ix2 p j) = (V c main_arg1 : S800000x128.Idx → EReal) (ix2 r j) := by
  obtain ⟨-, -, e0, e1, -⟩ := idx_facts t
  unfold iblk0
  rw [View.read_apply]
  show (V c main_arg1 : S800000x128.Idx → EReal) _ = V c main_arg1 _
  refine congrArg _ (funext fun a => Fin.ext ?_)
  match a with
  | ⟨0, _⟩ => show win0_1.index t (0 : Fin 2) * 8000 + 1 * p.val = r.val; omega
  | ⟨1, _⟩ => show win0_1.index t (1 : Fin 2) * 128 + 1 * j.val = j.val; omega

/-- The first layer's upper weight half is fetched whole at every point. -/
theorem blk2_at (c : Dev nD) (t : Fin cfg0.N) (j k : Fin 128) :
    (iblk0 V c 2 t : S128x128.Idx → EReal) (ix2 j k) = (V c main_v8 : S128x128.Idx → EReal) (ix2 j k) := by
  obtain ⟨-, -, -, -, e0, e1, -⟩ := idx_facts t
  unfold iblk0
  rw [View.read_apply]
  show (V c main_v8 : S128x128.Idx → EReal) _ = V c main_v8 _
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

/-- The first layer's lower weight half is fetched whole at every point. -/
theorem blk3_at (c : Dev nD) (t : Fin cfg0.N) (j k : Fin 128) :
    (iblk0 V c 3 t : S128x128.Idx → EReal) (ix2 j k) = (V c main_v9 : S128x128.Idx → EReal) (ix2 j k) := by
  obtain ⟨-, -, -, -, -, -, e0, e1, -⟩ := idx_facts t
  unfold iblk0
  rw [View.read_apply]
  show (V c main_v9 : S128x128.Idx → EReal) _ = V c main_v9 _
  refine congrArg _ (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

/-- The first layer's bias row is fetched whole at every point. -/
theorem blk4_at (c : Dev nD) (t : Fin cfg0.N) (k : Fin 128) :
    (iblk0 V c 4 t : S1x128.Idx → EReal) (ix2 (0 : Fin 1) k) = (V c main_v10 : S1x128.Idx → EReal) (ix2 (0 : Fin 1) k) := by
  obtain ⟨-, -, -, -, -, -, -, -, e0, e1, -⟩ := idx_facts t
  unfold iblk0
  rw [View.read_apply]
  show (V c main_v10 : S1x128.Idx → EReal) _ = V c main_v10 _
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * k.val = k.val; omega

/-- The second layer's weight is fetched whole at every point. -/
theorem blk5_at (c : Dev nD) (t : Fin cfg0.N) (j k : Fin 128) :
    (iblk0 V c 5 t : S128x128.Idx → EReal) (ix2 j k) = (V c main_arg6 : S128x128.Idx → EReal) (ix2 j k) := by
  obtain ⟨-, -, -, -, -, -, -, -, -, -, e0, e1, -⟩ := idx_facts t
  unfold iblk0
  rw [View.read_apply]
  show (V c main_arg6 : S128x128.Idx → EReal) _ = V c main_arg6 _
  refine congrArg _ (funext fun a => Fin.ext ?_)
  match a with
  | ⟨0, _⟩ => show win0_5.index t (0 : Fin 2) * 128 + 1 * j.val = j.val; omega
  | ⟨1, _⟩ => show win0_5.index t (1 : Fin 2) * 128 + 1 * k.val = k.val; omega

/-- The second layer's bias row is fetched whole at every point. -/
theorem blk6_at (c : Dev nD) (t : Fin cfg0.N) (k : Fin 128) :
    (iblk0 V c 6 t : S1x128.Idx → EReal) (ix2 (0 : Fin 1) k) = (V c main_v11 : S1x128.Idx → EReal) (ix2 (0 : Fin 1) k) := by
  obtain ⟨-, -, -, -, -, -, -, -, -, -, -, -, e0, e1, -⟩ := idx_facts t
  unfold iblk0
  rw [View.read_apply]
  show (V c main_v11 : S1x128.Idx → EReal) _ = V c main_v11 _
  refine congrArg _ (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 128 + 1 * k.val = k.val; omega

/-- WHAT POINT `t` WRITES BACK is block `t` of the edge-message array of the arrays as the region finds them. -/
theorem flushed_eq (c : Dev nD) (t : Fin cfg0.N) :
    (dat0 (F := Ideal) V c).flushed 7 t = ((cfg0.win 7).blk t).view.read (Elt Ideal)
      (edgeArr (V c main_v7) (V c main_arg1) (V c main_v8) (V c main_v9) (V c main_v10) (V c main_arg6) (V c main_v11)) := by
  show (cfg0.win 7).cut (grid0.coords t) ((dat0 V c).after 7 t) = _
  rw [after0_7]
  unfold out0_7
  rw [View.canon_unit_zero hz]
  simp only [View.ld_unit_zero (S := S8000x128) hz, View.ld_unit_zero (S := S128x128) hz, View.ld_unit_zero (S := S1x128) hz]
  funext y
  obtain ⟨p, q, rfl⟩ : ∃ (p : Fin 8000) (q : Fin 128), y = ix2 p q := ⟨y 0, y 1, eq_ix2 y⟩
  have ht : t.val < 100 := lt_of_lt_of_eq t.isLt N_0
  have e7 : win0_7.index t (0 : Fin 2) = t.val ∧ win0_7.index t (1 : Fin 2) = 0 := by
    obtain ⟨-, -, -, -, -, -, -, -, -, -, -, -, -, -, e0, e1⟩ := idx_facts t
    exact ⟨e0, e1⟩
  show (k0_pay1 (iblk0 V c 0 t) (iblk0 V c 1 t) (iblk0 V c 2 t) (iblk0 V c 3 t) (iblk0 V c 4 t) (iblk0 V c 5 t) (iblk0 V c 6 t) : S8000x128.Idx → EReal) (ix2 p q)
    = edgeArr (V c main_v7) (V c main_arg1) (V c main_v8) (V c main_v9) (V c main_v10) (V c main_arg6) (V c main_v11) (((cfg0.win 7).blk t).view.emb (ix2 p q))
  refine (pay_at (iblk0 V c 0 t) (iblk0 V c 1 t) (iblk0 V c 2 t) (iblk0 V c 3 t) (iblk0 V c 4 t) (iblk0 V c 5 t) (iblk0 V c 6 t) p q).trans ?_
  refine Eq.trans ?_ (edgeArr_at (V c main_v7) (V c main_arg1) (V c main_v8) (V c main_v9) (V c main_v10) (V c main_arg6) (V c main_v11)
    (((cfg0.win 7).blk t).view.emb (ix2 p q)) ⟨8000 * t.val + p.val, by have := p.isLt; omega⟩ q ?_ ?_).symm
  · exact edgeRow_congr (fun j => blk0_at V c t p j _ rfl) (fun j => blk1_at V c t p j _ rfl) (fun j k => blk2_at V c t j k)
      (fun j k => blk3_at V c t j k) (fun k => blk4_at V c t k) (fun j k => blk5_at V c t j k) (fun k => blk6_at V c t k) q
  · show win0_7.index t (0 : Fin 2) * 8000 + 1 * p.val = 8000 * t.val + p.val
    omega
  · show win0_7.index t (1 : Fin 2) * 128 + 1 * q.val = q.val
    omega

/-- An index of the array is in point `t`'s block iff each coordinate is in the block's range on its axis. -/
theorem mem_blk (t : Fin cfg0.N) (i : S800000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v12).slice (win0_7.rect t)).set ↔ _
  rw [View.set_slice_whole, Rect.mem_set_unit]
  exact Iff.rfl

/-- Every index of the array is in the block of a point that writes back: row `r` is in block `r / 8000`. -/
theorem cover (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  have hlt : (i 0).val / 8000 < cfg0.N := lt_of_lt_of_eq (by omega : (i 0).val / 8000 < 100) N_0.symm
  have e7 : win0_7.index ⟨(i 0).val / 8000, hlt⟩ (0 : Fin 2) = (i 0).val / 8000 ∧ win0_7.index ⟨(i 0).val / 8000, hlt⟩ (1 : Fin 2) = 0 := by
    obtain ⟨-, -, -, -, -, -, -, -, -, -, -, -, -, -, e0, e1⟩ := idx_facts ⟨(i 0).val / 8000, hlt⟩
    exact ⟨e0, e1⟩
  refine ⟨⟨(i 0).val / 8000, hlt⟩, flush0_7 _, ?_⟩
  rw [mem_blk]
  intro a
  match a with
  | ⟨0, _⟩ =>
    show win0_7.index ⟨(i 0).val / 8000, hlt⟩ (0 : Fin 2) * 8000 ≤ (i 0).val ∧ (i 0).val < win0_7.index ⟨(i 0).val / 8000, hlt⟩ (0 : Fin 2) * 8000 + 8000
    omega
  | ⟨1, _⟩ =>
    show win0_7.index ⟨(i 0).val / 8000, hlt⟩ (1 : Fin 2) * 128 ≤ (i 1).val ∧ (i 1).val < win0_7.index ⟨(i 0).val / 8000, hlt⟩ (1 : Fin 2) * 128 + 128
    omega

/-- THE ARRAY the edge-message region leaves: entry `(r, q)` is the message of row `r` of the gathered node rows and the
    edge rows, through the two layers as the region finds them, at output `q`. -/
theorem edge_final (c : Dev nD) (r : Fin 800000) (q : Fin 128) :
    ((dat0 (F := Ideal) V c).arrAt 7 cfg0.N : S800000x128.Idx → EReal) (ix2 r q)
      = Cert.GraphConv.edgeRow (fun j => (V c main_v7 : S800000x128.Idx → EReal) (ix2 r j)) (fun j => (V c main_arg1 : S800000x128.Idx → EReal) (ix2 r j))
          (fun j k => (V c main_v8 : S128x128.Idx → EReal) (ix2 j k)) (fun j k => (V c main_v9 : S128x128.Idx → EReal) (ix2 j k))
          (fun k => (V c main_v10 : S1x128.Idx → EReal) (ix2 (0 : Fin 1) k)) (fun j k => (V c main_arg6 : S128x128.Idx → EReal) (ix2 j k))
          (fun k => (V c main_v11 : S1x128.Idx → EReal) (ix2 (0 : Fin 1) k)) q :=
  (congrFun ((dat0 (F := Ideal) V c).arrAt_eq_of_cover 7
      (edgeArr (V c main_v7) (V c main_arg1) (V c main_v8) (V c main_v9) (V c main_v10) (V c main_arg6) (V c main_v11))
      (fun t _ => flushed_eq V c t) cover) (ix2 r q)).trans
    (edgeArr_at (V c main_v7) (V c main_arg1) (V c main_v8) (V c main_v9) (V c main_v10) (V c main_arg6) (V c main_v11) (ix2 r q) r q rfl rfl)

end Cert.KernelIdeal.EdgeValue

end
-- ==== Proof.Node.lean ====
/-
  The value of the node-update region of the idealized kernel program: after the region, every row of its output array
  is the node update `Cert.GraphConv.nodeRow` of the same row of the two node-feature arrays and of the two layers'
  weights and biases, whatever the TensorCore's buffers held when the region was entered.
-/
import proofs.«132730_j24988119728418_2_alg».proof.Proof.Gen.KernelIdeal.Frame
import proofs.«132730_j24988119728418_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeValue

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an index -/

/-- The body's matrix product into the zero accumulator, at row `p` and column `q`: the sum over the 128 contracted
    positions of the left operand's row `p` times the right operand's column `q`. -/
theorem matmul_at (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  refine (Ideal.matmul_constant_zero_apply dot_S5000x128_S128x128_S5000x128_1_0_0_1_n_n none A B (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The body's result at row `p`, column `q` of its block is the node update of row `p` of the two loaded
    feature blocks, with the loaded weights and biases. -/
theorem payload_at (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    (k1_pay1 (F := Ideal) x0 x1 x2 x3 x4 x5 : S5000x128.Idx → EReal) (ix2 p q)
      = Cert.GraphConv.nodeRow (fun j => (x0 : S5000x128.Idx → EReal) (ix2 p j)) (fun j => (x1 : S5000x128.Idx → EReal) (ix2 p j))
          (fun j k => (x2 : S128x128.Idx → EReal) (ix2 j k)) (fun k => (x3 : S1x128.Idx → EReal) (ix2 (0 : Fin 1) k))
          (fun j k => (x4 : S128x128.Idx → EReal) (ix2 j k)) (fun k => (x5 : S1x128.Idx → EReal) (ix2 (0 : Fin 1) k)) q := by
  unfold k1_pay1 Cert.GraphConv.nodeRow
  refine (addf_apply _ _ _).trans ?_
  refine congrArg₂ (· + ·) ?_ ?_
  · refine (matmul_at _ _ p q).trans ?_
    refine Finset.sum_congr rfl fun k _ => ?_
    refine congrArg₂ (· * ·) ?_ rfl
    refine (maximumf_apply _ _ _).trans ?_
    refine congrArg₂ max ?_ rfl
    refine (addf_apply _ _ _).trans ?_
    refine congrArg₂ (· + ·) ?_ ?_
    · refine (matmul_at _ _ p k).trans ?_
      refine Finset.sum_congr rfl fun j _ => ?_
      refine congrArg₂ (· * ·) ?_ rfl
      show (shapeCast S5000x128 x0 shapeCasts_S5000x128_S5000x128) (ix2 p j) + x1 (ix2 p j) = _
      rw [shapeCast_self]
    · rw [shapeCast_self]
      exact broadcastTo_1b_ab_apply _ _ p k
  · rw [shapeCast_self]
    exact broadcastTo_1b_ab_apply _ _ p q

/-! ## From the blocks to the array -/

theorem hz : (![0, 0] : Fin 2 → Nat) = fun _ => 0 := funext fun a => by fin_cases a <;> rfl

/-- The region's output array as ONE function of the arrays the region reads: row by row, the node update. -/
def nodeArr (V : (c : Dev nD) → (b : Ref sig .tc) → Buf (Elt Ideal) ((c : Thread nD τ).loc b)) (c : Dev nD) :
    S50000x128.Idx → EReal := fun i =>
  Cert.GraphConv.nodeRow (fun j => (V c main_v15 : S50000x128.Idx → EReal) (ix2 (i 0) j)) (fun j => (V c main_arg0 : S50000x128.Idx → EReal) (ix2 (i 0) j))
    (fun j k => (V c main_arg8 : S128x128.Idx → EReal) (ix2 j k)) (fun k => (V c main_v16 : S1x128.Idx → EReal) (ix2 (0 : Fin 1) k))
    (fun j k => (V c main_arg10 : S128x128.Idx → EReal) (ix2 j k)) (fun k => (V c main_v17 : S1x128.Idx → EReal) (ix2 (0 : Fin 1) k)) (i 1)

/-- The printed index maps, decided over the ten grid points: the two feature windows' blocks move with the output's
    (block `t` on the rows, block 0 on the columns), and every weight and bias window stays at its one block. -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of block `t` is row `5000 t + p` of the array. -/
def rowOf (t : Fin cfg1.N) (p : Fin 5000) : Fin 50000 :=
  ⟨t.val * 5000 + p.val, by have ht : t.val < 10 := lt_of_lt_of_eq t.isLt N_1; have hp := p.isLt; omega⟩

/-- Where the output window's block at point `t` sits in its array: a block's coordinate is index × size + the
    coordinate inside the block. -/
theorem emb_out (t : Fin cfg1.N) (p : Fin 5000) (q : Fin 128) :
    ((cfg1.win 6).blk t).view.emb (ix2 p q : S5000x128.Idx) = (ix2 (rowOf t p) q : S50000x128.Idx) := by
  obtain ⟨e0, e1, -⟩ := idx_facts t
  funext a; apply Fin.ext
  match a with
  | ⟨0, _⟩ => show win1_6.index t (0 : Fin 2) * 5000 + 1 * p.val = t.val * 5000 + p.val; rw [e0]; omega
  | ⟨1, _⟩ => show win1_6.index t (1 : Fin 2) * 128 + 1 * q.val = q.val; rw [e1]; omega

/-- The two feature windows' blocks at point `t` sit at the same rows. -/
theorem emb_feat0 (t : Fin cfg1.N) (p : Fin 5000) (q : Fin 128) :
    ((cfg1.win 0).blk t).view.emb (ix2 p q : S5000x128.Idx) = (ix2 (rowOf t p) q : S50000x128.Idx) := by
  obtain ⟨-, -, e0, e1, -⟩ := idx_facts t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

theorem emb_feat1 (t : Fin cfg1.N) (p : Fin 5000) (q : Fin 128) :
    ((cfg1.win 1).blk t).view.emb (ix2 p q : S5000x128.Idx) = (ix2 (rowOf t p) q : S50000x128.Idx) := by
  obtain ⟨-, -, -, -, e0, e1, -⟩ := idx_facts t
  funext a; apply Fin.ext
  match a with
  | ⟨0, _⟩ => show win1_1.index t (0 : Fin 2) * 5000 + 1 * p.val = t.val * 5000 + p.val; rw [e0]; omega
  | ⟨1, _⟩ => show win1_1.index t (1 : Fin 2) * 128 + 1 * q.val = q.val; rw [e1]; omega

/-- Each weight window's one block is its whole array, -/
theorem emb_w2 (t : Fin cfg1.N) (j k : Fin 128) :
    ((cfg1.win 2).blk t).view.emb (ix2 j k : S128x128.Idx) = (ix2 j k : S128x128.Idx) := by
  obtain ⟨-, -, -, -, -, -, e0, e1, -⟩ := idx_facts t
  funext a; apply Fin.ext
  match a with
  | ⟨0, _⟩ => show win1_2.index t (0 : Fin 2) * 128 + 1 * j.val = j.val; rw [e0]; omega
  | ⟨1, _⟩ => show win1_2.index t (1 : Fin 2) * 128 + 1 * k.val = k.val; rw [e1]; omega

theorem emb_w4 (t : Fin cfg1.N) (j k : Fin 128) :
    ((cfg1.win 4).blk t).view.emb (ix2 j k : S128x128.Idx) = (ix2 j k : S128x128.Idx) := by
  obtain ⟨-, -, -, -, -, -, -, -, -, -, e0, e1, -⟩ := idx_facts t
  funext a; apply Fin.ext
  match a with
  | ⟨0, _⟩ => show win1_4.index t (0 : Fin 2) * 128 + 1 * j.val = j.val; rw [e0]; omega
  | ⟨1, _⟩ => show win1_4.index t (1 : Fin 2) * 128 + 1 * k.val = k.val; rw [e1]; omega

/-- and each bias window's one block its whole one-row array. -/
theorem emb_b3 (t : Fin cfg1.N) (k : Fin 128) :
    ((cfg1.win 3).blk t).view.emb (ix2 (0 : Fin 1) k : S1x128.Idx) = (ix2 (0 : Fin 1) k : S1x128.Idx) := by
  obtain ⟨-, -, -, -, -, -, -, -, e0, e1, -⟩ := idx_facts t
  funext a; apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

theorem emb_b5 (t : Fin cfg1.N) (k : Fin 128) :
    ((cfg1.win 5).blk t).view.emb (ix2 (0 : Fin 1) k : S1x128.Idx) = (ix2 (0 : Fin 1) k : S1x128.Idx) := by
  obtain ⟨-, -, -, -, -, -, -, -, -, -, -, -, e0, e1⟩ := idx_facts t
  funext a; apply Fin.ext
  match a with
  | ⟨0, _⟩ => show win1_5.index t (0 : Fin 2) * 1 + 1 * 0 = 0; rw [e0]
  | ⟨1, _⟩ => show win1_5.index t (1 : Fin 2) * 128 + 1 * k.val = k.val; rw [e1]; omega

/-- WHAT POINT `t` WRITES BACK is block `t` of the node update of the arrays as the region finds them. -/
theorem flushed_eq (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal) (nodeArr V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show (k1_pay1 (F := Ideal) (iblk1 V c 0 t) (iblk1 V c 1 t) (iblk1 V c 2 t) (iblk1 V c 3 t) (iblk1 V c 4 t) (iblk1 V c 5 t) : S5000x128.Idx → EReal) (ix2 p q)
    = nodeArr V c (((cfg1.win 6).blk t).view.emb (ix2 p q))
  refine (payload_at (iblk1 V c 0 t) (iblk1 V c 1 t) (iblk1 V c 2 t) (iblk1 V c 3 t) (iblk1 V c 4 t) (iblk1 V c 5 t) p q).trans ?_
  rw [emb_out t p q]
  have h0 : (fun j : Fin 128 => (iblk1 (F := Ideal) V c 0 t : S5000x128.Idx → EReal) (ix2 p j))
      = fun j => (V c main_v15 : S50000x128.Idx → EReal) (ix2 (rowOf t p) j) :=
    funext fun j => congrArg (V c main_v15 : S50000x128.Idx → EReal) (emb_feat0 t p j)
  have h1 : (fun j : Fin 128 => (iblk1 (F := Ideal) V c 1 t : S5000x128.Idx → EReal) (ix2 p j))
      = fun j => (V c main_arg0 : S50000x128.Idx → EReal) (ix2 (rowOf t p) j) :=
    funext fun j => congrArg (V c main_arg0 : S50000x128.Idx → EReal) (emb_feat1 t p j)
  have h2 : (fun j k : Fin 128 => (iblk1 (F := Ideal) V c 2 t : S128x128.Idx → EReal) (ix2 j k))
      = fun j k => (V c main_arg8 : S128x128.Idx → EReal) (ix2 j k) :=
    funext fun j => funext fun k => congrArg (V c main_arg8 : S128x128.Idx → EReal) (emb_w2 t j k)
  have h3 : (fun k : Fin 128 => (iblk1 (F := Ideal) V c 3 t : S1x128.Idx → EReal) (ix2 (0 : Fin 1) k))
      = fun k => (V c main_v16 : S1x128.Idx → EReal) (ix2 (0 : Fin 1) k) :=
    funext fun k => congrArg (V c main_v16 : S1x128.Idx → EReal) (emb_b3 t k)
  have h4 : (fun j k : Fin 128 => (iblk1 (F := Ideal) V c 4 t : S128x128.Idx → EReal) (ix2 j k))
      = fun j k => (V c main_arg10 : S128x128.Idx → EReal) (ix2 j k) :=
    funext fun j => funext fun k => congrArg (V c main_arg10 : S128x128.Idx → EReal) (emb_w4 t j k)
  have h5 : (fun k : Fin 128 => (iblk1 (F := Ideal) V c 5 t : S1x128.Idx → EReal) (ix2 (0 : Fin 1) k))
      = fun k => (V c main_v17 : S1x128.Idx → EReal) (ix2 (0 : Fin 1) k) :=
    funext fun k => congrArg (V c main_v17 : S1x128.Idx → EReal) (emb_b5 t k)
  rw [h0, h1, h2, h3, h4, h5]
  rfl

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v18).slice (win1_6.rect t)).set ↔ _
  rw [View.set_slice_whole, Rect.mem_set_unit]
  exact Iff.rfl

/-- The ten blocks of 5000 rows tile the 50000 rows: row `r` is in the block of point `r / 5000`, and every point
    writes its block back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega) N_1.symm⟩, rfl⟩
  obtain ⟨e0, e1, -⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-! ## The region's output array -/

/-- After the region its output array IS the node update of the arrays as the region finds them. -/
theorem node_array (V : (c : Dev nD) → (b : Ref sig .tc) → Buf (Elt Ideal) ((c : Thread nD τ).loc b)) (c : Dev nD) :
    (dat1 (F := Ideal) V c).arrAt 6 cfg1.N = nodeArr V c :=
  (dat1 (F := Ideal) V c).arrAt_eq_of_cover 6 (nodeArr V c) (fun t _ => flushed_eq V c t) cover

/-- Row `r`, column `q` of the region's output array: the node update of row `r` of the aggregated messages and of
    the node features, with the two layers' weights and biases, whatever the buffers held at the region's entry. -/
theorem node_final (V : (c : Dev nD) → (b : Ref sig .tc) → Buf (Elt Ideal) ((c : Thread nD τ).loc b)) (c : Dev nD) (r : Fin 50000) (q : Fin 128) :
    ((dat1 (F := Ideal) V c).arrAt 6 cfg1.N : S50000x128.Idx → EReal) (ix2 r q)
      = Cert.GraphConv.nodeRow (fun j => (V c main_v15 : S50000x128.Idx → EReal) (ix2 r j)) (fun j => (V c main_arg0 : S50000x128.Idx → EReal) (ix2 r j))
          (fun j k => (V c main_arg8 : S128x128.Idx → EReal) (ix2 j k)) (fun k => (V c main_v16 : S1x128.Idx → EReal) (ix2 (0 : Fin 1) k))
          (fun j k => (V c main_arg10 : S128x128.Idx → EReal) (ix2 j k)) (fun k => (V c main_v17 : S1x128.Idx → EReal) (ix2 (0 : Fin 1) k)) q :=
  congrFun (node_array V c) (ix2 r q)

end Cert.KernelIdeal.NodeValue

end
-- ==== Proof.RefValue.lean ====
/-
  The reference program read at one index.

  An edge's message: the reference joins the gathered source-node row and the edge's own row into one row of 256
  entries, applies a dense layer (256 inputs), adds the bias, takes the maximum with zero, applies a second dense layer
  and adds its bias. Read at row `r`, output `q`, this is `edgeRowCat` of the joined row, and by the law
  `edgeRowCat_eq` (a sum over 256 inputs is the sum over the first 128 plus the sum over the last 128) it is `edgeRow`
  of the two halves: the gathered row and the edge's row, against the top and the bottom half of the first weight.

  A node's new feature: the aggregated messages plus the node's own row, through two dense layers with the maximum
  with zero between them; read at row `r`, output `q`, this is `nodeRow`.

  The gathered rows and the aggregated messages stay opaque functions of the arguments: nothing here depends on which
  rows the gather reads or where the scatter adds.
-/
import proofs.«132730_j24988119728418_2_alg».proof.Proof.Gen.ReferenceIdeal.Read
import proofs.«132730_j24988119728418_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

/-! ## The composed index functions at literal coordinates -/

theorem lidx8 (r : Fin 800000) (k : Fin 128) (j : Fin 256) : lidx_main_v8 (ix2 r k) j = ix2 r j :=
  funext fun a => Fin.ext (by match a with | ⟨0, _⟩ => rfl | ⟨1, _⟩ => rfl)
theorem ridx8 (r : Fin 800000) (k : Fin 128) (j : Fin 256) : ridx_main_v8 (ix2 r k) j = ix2 j k :=
  funext fun a => Fin.ext (by match a with | ⟨0, _⟩ => rfl | ⟨1, _⟩ => rfl)
theorem lidx13 (r : Fin 800000) (q : Fin 128) (k : Fin 128) : lidx_main_v13 (ix2 r q) k = ix2 r k :=
  funext fun a => Fin.ext (by match a with | ⟨0, _⟩ => rfl | ⟨1, _⟩ => rfl)
theorem ridx13 (r : Fin 800000) (q : Fin 128) (k : Fin 128) : ridx_main_v13 (ix2 r q) k = ix2 k q :=
  funext fun a => Fin.ext (by match a with | ⟨0, _⟩ => rfl | ⟨1, _⟩ => rfl)
theorem lidx21 (r : Fin 50000) (k : Fin 128) (j : Fin 128) : lidx_main_v21 (ix2 r k) j = ix2 r j :=
  funext fun a => Fin.ext (by match a with | ⟨0, _⟩ => rfl | ⟨1, _⟩ => rfl)
theorem ridx21 (r : Fin 50000) (k : Fin 128) (j : Fin 128) : ridx_main_v21 (ix2 r k) j = ix2 j k :=
  funext fun a => Fin.ext (by match a with | ⟨0, _⟩ => rfl | ⟨1, _⟩ => rfl)
theorem lidx26 (r : Fin 50000) (q : Fin 128) (k : Fin 128) : lidx_main_v26 (ix2 r q) k = ix2 r k :=
  funext fun a => Fin.ext (by match a with | ⟨0, _⟩ => rfl | ⟨1, _⟩ => rfl)
theorem ridx26 (r : Fin 50000) (q : Fin 128) (k : Fin 128) : ridx_main_v26 (ix2 r q) k = ix2 k q :=
  funext fun a => Fin.ext (by match a with | ⟨0, _⟩ => rfl | ⟨1, _⟩ => rfl)

/-! ## The broadcast biases and the broadcast zero at an index -/

/-- The first edge layer's bias, broadcast over the rows, at `(r, k)` is the bias at `k`. -/
theorem bias10 (x5 : (⟨S128, .f32⟩ : BufTy).Contents (Elt Ideal)) (r : Fin 800000) (k : Fin 128) :
    val_main_v10 (F := Ideal) x5 (ix2 r k) = x5 (ix1 k) := by
  rw [val_main_v10_apply, val_main_v9_apply]
  exact congrArg x5 (funext fun a => Fin.ext (by match a with | ⟨0, _⟩ => rfl))
/-- The second edge layer's bias at `(r, q)`. -/
theorem bias15 (x7 : (⟨S128, .f32⟩ : BufTy).Contents (Elt Ideal)) (r : Fin 800000) (q : Fin 128) :
    val_main_v15 (F := Ideal) x7 (ix2 r q) = x7 (ix1 q) := by
  rw [val_main_v15_apply, val_main_v14_apply]
  exact congrArg x7 (funext fun a => Fin.ext (by match a with | ⟨0, _⟩ => rfl))
/-- The first node layer's bias at `(r, k)`. -/
theorem bias23 (x9 : (⟨S128, .f32⟩ : BufTy).Contents (Elt Ideal)) (r : Fin 50000) (k : Fin 128) :
    val_main_v23 (F := Ideal) x9 (ix2 r k) = x9 (ix1 k) := by
  rw [val_main_v23_apply, val_main_v22_apply]
  exact congrArg x9 (funext fun a => Fin.ext (by match a with | ⟨0, _⟩ => rfl))
/-- The second node layer's bias at `(r, q)`. -/
theorem bias28 (x11 : (⟨S128, .f32⟩ : BufTy).Contents (Elt Ideal)) (r : Fin 50000) (q : Fin 128) :
    val_main_v28 (F := Ideal) x11 (ix2 r q) = x11 (ix1 q) := by
  rw [val_main_v28_apply, val_main_v27_apply]
  exact congrArg x11 (funext fun a => Fin.ext (by match a with | ⟨0, _⟩ => rfl))

/-- The zero the edge layer's maximum compares with, at every index. -/
theorem zero_edge (i : S800000x128.Idx) : val_main_call0_v0 (F := Ideal) i = Cert.GraphConv.zero32 := by
  rw [val_main_call0_v0_apply, val_main_call0_cst_apply]; rfl
/-- The zero the node layer's maximum compares with, at every index. -/
theorem zero_node (i : S50000x128.Idx) : val_main_call1_v0 (F := Ideal) i = Cert.GraphConv.zero32 := by
  rw [val_main_call1_v0_apply, val_main_call1_cst_apply]; rfl

/-! ## The joined row: its first 128 entries are the gathered row, its last 128 the edge's own row -/

theorem cat_left (x0 : (⟨S50000x128, .f32⟩ : BufTy).Contents (Elt Ideal)) (x1 : (⟨S800000x128, .f32⟩ : BufTy).Contents (Elt Ideal))
    (x2 : (⟨S800000, .i32⟩ : BufTy).Contents (Elt Ideal)) (r : Fin 800000) (j : Fin 128) :
    val_main_v7 (F := Ideal) x0 x1 x2 (ix2 r (Fin.castAdd 128 j)) = val_main_v6 (F := Ideal) x0 x2 (ix2 r j) := by
  unfold val_main_v7
  generalize val_main_v6 (F := Ideal) x0 x2 = y
  exact concatenate_pair_apply_left (1 : Fin S800000x256.rank) y x1 concatenates_S800000x128_S800000x128_S800000x256_d1
    (ix2 r (Fin.castAdd 128 j)) rfl (ix2 r j) (fun b => by match b with | ⟨0, _⟩ => rfl | ⟨1, _⟩ => rfl)

theorem cat_right (x0 : (⟨S50000x128, .f32⟩ : BufTy).Contents (Elt Ideal)) (x1 : (⟨S800000x128, .f32⟩ : BufTy).Contents (Elt Ideal))
    (x2 : (⟨S800000, .i32⟩ : BufTy).Contents (Elt Ideal)) (r : Fin 800000) (j : Fin 128) :
    val_main_v7 (F := Ideal) x0 x1 x2 (ix2 r (Fin.natAdd 128 j)) = x1 (ix2 r j) := by
  unfold val_main_v7
  generalize val_main_v6 (F := Ideal) x0 x2 = y
  exact concatenate_pair_apply_right (1 : Fin S800000x256.rank) y x1 concatenates_S800000x128_S800000x128_S800000x256_d1
    (ix2 r (Fin.natAdd 128 j)) rfl rfl (ix2 r j)
    (fun b hb => by match b with | ⟨0, _⟩ => rfl | ⟨1, _⟩ => exact absurd rfl hb)
    (by show j.val + 128 = 128 + j.val; omega)

/-! ## An edge's message -/

/-- The edge layer's hidden activation at `(r, k)`: the joined row against column `k` of the first weight, plus the
    bias, maximum with zero. -/
theorem hidden_edge (x0 : (⟨S50000x128, .f32⟩ : BufTy).Contents (Elt Ideal)) (x1 : (⟨S800000x128, .f32⟩ : BufTy).Contents (Elt Ideal))
    (x2 : (⟨S800000, .i32⟩ : BufTy).Contents (Elt Ideal)) (x4 : (⟨S256x128, .f32⟩ : BufTy).Contents (Elt Ideal))
    (x5 : (⟨S128, .f32⟩ : BufTy).Contents (Elt Ideal)) (r : Fin 800000) (k : Fin 128) :
    val_main_v12 (F := Ideal) x0 x1 x2 x4 x5 (ix2 r k)
      = max ((∑ j : Fin 256, val_main_v7 (F := Ideal) x0 x1 x2 (ix2 r j) * x4 (ix2 j k)) + x5 (ix1 k)) Cert.GraphConv.zero32 := by
  rw [val_main_v12_apply, val_main_v11_apply, val_main_v8_apply, bias10, zero_edge, Ideal.maximumf_def, Ideal.addf_def]
  refine congrArg (fun s => max (s + x5 (ix1 k)) Cert.GraphConv.zero32) (Finset.sum_congr rfl fun j _ => ?_)
  rw [lidx8, ridx8]

/-- The reference's message of edge `r` at output `q`, over the joined row. -/
theorem edge_cat (x0 : (⟨S50000x128, .f32⟩ : BufTy).Contents (Elt Ideal)) (x1 : (⟨S800000x128, .f32⟩ : BufTy).Contents (Elt Ideal))
    (x2 : (⟨S800000, .i32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (r : Fin 800000) (q : Fin 128) :
    val_main_v16 (F := Ideal) x0 x1 x2 x4 x5 x6 x7 (ix2 r q)
      = Cert.GraphConv.edgeRowCat (fun j => val_main_v7 (F := Ideal) x0 x1 x2 (ix2 r j)) (fun j k => x4 (ix2 j k))
          (fun k => x5 (ix1 k)) (fun j k => x6 (ix2 j k)) (fun k => x7 (ix1 k)) q := by
  rw [val_main_v16_apply, val_main_v13_apply, bias15, Ideal.addf_def]
  unfold Cert.GraphConv.edgeRowCat
  refine congrArg (· + x7 (ix1 q)) (Finset.sum_congr rfl fun k _ => ?_)
  rw [lidx13, ridx13, hidden_edge]

theorem ref_edge (x0 : (⟨S50000x128, .f32⟩ : BufTy).Contents (Elt Ideal)) (x1 : (⟨S800000x128, .f32⟩ : BufTy).Contents (Elt Ideal))
    (x2 : (⟨S800000, .i32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (r : Fin 800000) (q : Fin 128) :
    val_main_v16 (F := Ideal) x0 x1 x2 x4 x5 x6 x7 (ix2 r q)
      = Cert.GraphConv.edgeRow (fun j => val_main_v6 (F := Ideal) x0 x2 (ix2 r j)) (fun j => x1 (ix2 r j))
          (fun j k => x4 (ix2 (Fin.castAdd 128 j) k)) (fun j k => x4 (ix2 (Fin.natAdd 128 j) k)) (fun k => x5 (ix1 k))
          (fun j k => x6 (ix2 j k)) (fun k => x7 (ix1 k)) q := by
  have hl : (fun j : Fin 128 => val_main_v7 (F := Ideal) x0 x1 x2 (ix2 r (Fin.castAdd 128 j)))
      = fun j => val_main_v6 (F := Ideal) x0 x2 (ix2 r j) := funext fun j => cat_left x0 x1 x2 r j
  have hr : (fun j : Fin 128 => val_main_v7 (F := Ideal) x0 x1 x2 (ix2 r (Fin.natAdd 128 j)))
      = fun j => x1 (ix2 r j) := funext fun j => cat_right x0 x1 x2 r j
  rw [edge_cat, Cert.GraphConv.edgeRowCat_eq, hl, hr]

/-! ## A node's new feature -/

/-- The node layer's hidden activation at `(r, k)`. -/
theorem hidden_node (x0 : (⟨S50000x128, .f32⟩ : BufTy).Contents (Elt Ideal)) (x1 : (⟨S800000x128, .f32⟩ : BufTy).Contents (Elt Ideal))
    (x2 x3 : (⟨S800000, .i32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (r : Fin 50000) (k : Fin 128) :
    val_main_v25 (F := Ideal) x0 x1 x2 x3 x4 x5 x6 x7 x8 x9 (ix2 r k)
      = max ((∑ j : Fin 128, (val_main_v19 (F := Ideal) x0 x1 x2 x3 x4 x5 x6 x7 (ix2 r j) + x0 (ix2 r j)) * x8 (ix2 j k))
          + x9 (ix1 k)) Cert.GraphConv.zero32 := by
  rw [val_main_v25_apply, val_main_v24_apply, val_main_v21_apply, bias23, zero_node, Ideal.maximumf_def, Ideal.addf_def]
  refine congrArg (fun s => max (s + x9 (ix1 k)) Cert.GraphConv.zero32) (Finset.sum_congr rfl fun j _ => ?_)
  rw [lidx21, ridx21, val_main_v20_apply, Ideal.addf_def]

theorem ref_node (x0 : (⟨S50000x128, .f32⟩ : BufTy).Contents (Elt Ideal)) (x1 : (⟨S800000x128, .f32⟩ : BufTy).Contents (Elt Ideal))
    (x2 x3 : (⟨S800000, .i32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (r : Fin 50000) (q : Fin 128) :
    val_main_v29 (F := Ideal) x0 x1 x2 x3 x4 x5 x6 x7 x8 x9 x10 x11 (ix2 r q)
      = Cert.GraphConv.nodeRow (fun j => val_main_v19 (F := Ideal) x0 x1 x2 x3 x4 x5 x6 x7 (ix2 r j)) (fun j => x0 (ix2 r j))
          (fun j k => x8 (ix2 j k)) (fun k => x9 (ix1 k)) (fun j k => x10 (ix2 j k)) (fun k => x11 (ix1 k)) q := by
  rw [val_main_v29_apply, val_main_v26_apply, bias28, Ideal.addf_def]
  unfold Cert.GraphConv.nodeRow
  refine congrArg (· + x11 (ix1 q)) (Finset.sum_congr rfl fun k _ => ?_)
  rw [lidx26, ridx26, hidden_node]

end Cert.ReferenceIdeal.RefValue

end
-- ==== Proof.Bridge.lean ====
/-
  The kernel program's result and the reference's result are one function of the arguments.

  Both programs compute, for a graph with 50000 nodes and 800000 edges,
      m_e   = relu ([x_src(e), y_e] · W1a + b1a) · W1b + b1b          (one message per edge),
      agg_v = Σ over the edges e with dst(e) = v of m_e,
      out_v = relu ((agg_v + x_v) · W2a + b2a) · W2b + b2b            (one row per node).
  The kernel program runs the two dense stages as kernels over blocks of rows (8000 edges, 5000 nodes at a time) and
  splits the first layer over the two halves of W1a, so that the 256 concatenated inputs are never built; the
  reference concatenates and multiplies once. On the extended reals every change of float format is the identity and
  the two first layers differ only by the grouping of one sum (Spec.lean). The gather of source rows and the scatter-sum
  are the SAME host operations in both programs and are carried here as opaque functions: the proof shows the arrays
  going into them equal and never opens them.
-/
import proofs.«132730_j24988119728418_2_alg».proof.Proof.Spec
import proofs.«132730_j24988119728418_2_alg».proof.Proof.HostK
import proofs.«132730_j24988119728418_2_alg».proof.Proof.Edge
import proofs.«132730_j24988119728418_2_alg».proof.Proof.Node
import proofs.«132730_j24988119728418_2_alg».proof.Proof.RefValue
import proofs.«132730_j24988119728418_2_alg».proof.Proof.Gen.ReferenceIdeal.Read

noncomputable section

namespace Cert.GraphConv

/-- Two edge messages agree when their rows, weights and biases agree entry by entry. -/
theorem edgeRow_congr {h h' e e' : Fin 128 → EReal} {Wt Wt' Wb Wb' : Fin 128 → Fin 128 → EReal} {ba ba' : Fin 128 → EReal}
    {Wo Wo' : Fin 128 → Fin 128 → EReal} {bo bo' : Fin 128 → EReal} (q : Fin 128)
    (hh : ∀ j, h j = h' j) (he : ∀ j, e j = e' j) (ht : ∀ j k, Wt j k = Wt' j k) (hb : ∀ j k, Wb j k = Wb' j k)
    (hba : ∀ k, ba k = ba' k) (ho : ∀ j k, Wo j k = Wo' j k) (hbo : ∀ k, bo k = bo' k) :
    edgeRow h e Wt Wb ba Wo bo q = edgeRow h' e' Wt' Wb' ba' Wo' bo' q := by
  rw [show h = h' from funext hh, show e = e' from funext he, show Wt = Wt' from funext fun j => funext (ht j),
    show Wb = Wb' from funext fun j => funext (hb j), show ba = ba' from funext hba,
    show Wo = Wo' from funext fun j => funext (ho j), show bo = bo' from funext hbo]

/-- Two node updates agree when their rows, weights and biases agree entry by entry. -/
theorem nodeRow_congr {a a' x x' : Fin 128 → EReal} {Wa Wa' : Fin 128 → Fin 128 → EReal} {ba ba' : Fin 128 → EReal}
    {Wo Wo' : Fin 128 → Fin 128 → EReal} {bo bo' : Fin 128 → EReal} (q : Fin 128)
    (ha : ∀ j, a j = a' j) (hx : ∀ j, x j = x' j) (hw : ∀ j k, Wa j k = Wa' j k)
    (hba : ∀ k, ba k = ba' k) (ho : ∀ j k, Wo j k = Wo' j k) (hbo : ∀ k, bo k = bo' k) :
    nodeRow a x Wa ba Wo bo q = nodeRow a' x' Wa' ba' Wo' bo' q := by
  rw [show a = a' from funext ha, show x = x' from funext hx, show Wa = Wa' from funext fun j => funext (hw j),
    show ba = ba' from funext hba, show Wo = Wo' from funext fun j => funext (ho j), show bo = bo' from funext hbo]

end Cert.GraphConv

/-! ## The two sides meet -/

namespace Cert.Proof.Bridge

open Cert.KernelIdeal Cert.KernelIdeal.Gen
open Idealize.ShloMosaic Idealize.ShloMosaic.TcCoe Idealize.SL.Sem Idealize.ShloMosaic.ValueIdx
open Cert.KernelIdeal.HostValue

variable (m : (ℓ : Loc nD τ sig) → Buf (Elt Ideal) ℓ) (ρ : Dev nD → PrngReg)

/-- The wrapped source indices are the reference's. -/
theorem srcIdx_eq (x2 : S800000.Idx → BitVec 32) : srcIdx x2 = Cert.ReferenceIdeal.Read.val_main_v5 (F := Ideal) x2 := rfl

/-- The gathered rows are the reference's. -/
theorem gather_eq (x0 : S50000x128.Idx → EReal) (x2 : S800000.Idx → BitVec 32) :
    Host.gather gather_S50000x128_S800000x1_S800000x128_1_0_n_n_0_1_1128 x0 (srcIdx x2)
      = Cert.ReferenceIdeal.Read.val_main_v6 (F := Ideal) x0 x2 := rfl

/-- THE MESSAGES: the edge-message kernel's output array is the reference's message array — row by row both are the
    two-layer network of the gathered source row and the edge's row, the kernel's first layer split over the weight's two
    halves where the reference's runs over the concatenated 256 inputs. -/
theorem messages_eq (c : Dev nD) :
    (W2 m ρ c (Proc.devRef .tc main_v12) : S800000x128.Idx → EReal)
      = Cert.ReferenceIdeal.Read.val_main_v16 (F := Ideal) (m ((c : Thread nD τ).loc main_arg0)) (m ((c : Thread nD τ).loc main_arg1))
          (m ((c : Thread nD τ).loc main_arg2)) (m ((c : Thread nD τ).loc main_arg4)) (m ((c : Thread nD τ).loc main_arg5))
          (m ((c : Thread nD τ).loc main_arg6)) (m ((c : Thread nD τ).loc main_arg7)) := by
  funext i
  obtain ⟨r, q, rfl⟩ : ∃ (r : Fin 800000) (q : Fin 128), i = ix2 r q := ⟨i 0, i 1, eq_ix2 i⟩
  rw [Cert.ReferenceIdeal.RefValue.ref_edge]
  refine ((congrFun (W2_arr m ρ c 7) (ix2 r q)).trans (Cert.KernelIdeal.EdgeValue.edge_final (V1 m ρ) c r q)).trans ?_
  rw [V1_v7, V1_arg1, V1_v8, V1_v9, V1_v10, V1_arg6, V1_v11, gather_eq]
  exact Cert.GraphConv.edgeRow_congr q (fun _ => rfl) (fun _ => rfl) (fun j k => slice_top _ j k) (fun j k => slice_bot _ j k)
    (fun k => bias_row _ k) (fun _ _ => rfl) (fun k => bias_row _ k)

/-- THE AGGREGATE: summed into their destination nodes the two message arrays give one array. -/
theorem aggregate_eq (c : Dev nD) :
    (V3 m ρ c main_v15 : S50000x128.Idx → EReal)
      = Cert.ReferenceIdeal.Read.val_main_v19 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) := by
  rw [V3_v15, messages_eq]
  rfl

/-- THE RESULT: the node-update kernel's output array is the reference's result, as a function of the arguments. -/
theorem result_eq (c : Dev nD) :
    (W4 m ρ c (Proc.devRef .tc main_v18) : S50000x128.Idx → EReal)
      = Cert.ReferenceIdeal.Read.val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) := by
  funext i
  obtain ⟨r, q, rfl⟩ : ∃ (r : Fin 50000) (q : Fin 128), i = ix2 r q := ⟨i 0, i 1, eq_ix2 i⟩
  rw [Cert.ReferenceIdeal.RefValue.ref_node]
  refine ((congrFun (W4_arr m ρ c 6) (ix2 r q)).trans (Cert.KernelIdeal.NodeValue.node_final (V3 m ρ) c r q)).trans ?_
  rw [aggregate_eq, V3_arg0, V3_arg8, V3_v16, V3_arg10, V3_v17]
  exact Cert.GraphConv.nodeRow_congr q (fun _ => rfl) (fun _ => rfl) (fun _ _ => rfl) (fun k => bias_row _ k) (fun _ _ => rfl) (fun k => bias_row _ k)

end Cert.Proof.Bridge

end
-- ==== Proof.lean ====
/-
  A message-passing graph convolution (50000 nodes, 800000 edges, 128 features): a Pallas program with two kernels —
  the edge-message network and the node-update network, each two dense layers with a relu between — against the plain
  jnp reference, equal over the extended reals.

  * Frames: the kernel program (as printed and idealized) runs to the end of its four segments with its arguments
    untouched — the generated frame certificate; the reference is host operations only, and its frame is its generated
    run with the result dropped.
  * The idealization rewrote nothing, so it preserves the program trivially.
  * Values: the kernel program's run ends with the result buffer at the last segment boundary's contents (KRun.lean);
    those contents are, block by block, the node-update network of the aggregated messages (Node.lean), which are the
    scatter-sum of the edge-message network's output (Edge.lean, HostK.lean); the reference's run ends with the composed
    host term, read row by row in RefValue.lean. Both are one function of the arguments (Bridge.lean): the only algebra
    is that the first layer's sum over the 256 concatenated inputs is the sum over the first 128 plus the sum over the
    last 128 (Spec.lean), which needs no finiteness.
-/
import proofs.«132730_j24988119728418_2_alg».proof.Defs
import proofs.«132730_j24988119728418_2_alg».proof.Proof.Gen.Kernel
import proofs.«132730_j24988119728418_2_alg».proof.Proof.Gen.Kernel.Skeleton
import proofs.«132730_j24988119728418_2_alg».proof.Proof.Gen.Kernel.Launch
import proofs.«132730_j24988119728418_2_alg».proof.Proof.Gen.Kernel.Points
import proofs.«132730_j24988119728418_2_alg».proof.Proof.Gen.Kernel.Frame
import proofs.«132730_j24988119728418_2_alg».proof.Proof.Gen.KernelIdeal
import proofs.«132730_j24988119728418_2_alg».proof.Proof.Gen.KernelIdeal.Skeleton
import proofs.«132730_j24988119728418_2_alg».proof.Proof.Gen.KernelIdeal.Launch
import proofs.«132730_j24988119728418_2_alg».proof.Proof.Gen.KernelIdeal.Points
import proofs.«132730_j24988119728418_2_alg».proof.Proof.Gen.KernelIdeal.Frame
import proofs.«132730_j24988119728418_2_alg».proof.Proof.Gen.ReferenceIdeal
import proofs.«132730_j24988119728418_2_alg».proof.Proof.Gen.Pre_finite_inputs
import proofs.«132730_j24988119728418_2_alg».proof.Proof.Gen.ReferenceIdeal.Run
import proofs.«132730_j24988119728418_2_alg».proof.Proof.Gen.ReferenceIdeal.Read
import proofs.«132730_j24988119728418_2_alg».proof.Proof.KRun
import proofs.«132730_j24988119728418_2_alg».proof.Proof.Bridge
import Idealize.ShloMosaic.Adequacy
import Idealize.ShloMosaic.Init

noncomputable section

/-! ## The claims -/

namespace Cert.Proof.Claims

open Cert.KernelIdeal Cert.KernelIdeal.Gen
open Idealize.ShloMosaic Idealize.ShloMosaic.TcCoe Idealize.SL.Sem

/-- The kernel program as printed runs and leaves its arguments as launched: the generated frame. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the two programs, run from memories that agree on the arguments, end with one result: the
    kernel program's run names its result the last boundary's contents of the output array, the reference's run names its
    own the composed host term, and the two are one function of the arguments (`Bridge.result_eq`). -/
theorem algebraic : Cert.algebraic_KernelIdeal_ReferenceIdeal := by
  intro m ρ m' ρ' _ hagree
  refine ⟨fun c => W4 m ρ c (Proc.devRef .tc main_v18), Cert.KernelIdeal.KRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [h0, h1, h2, h3, h4, h5, h6, h7, h8, h9, h10, h11]
  exact (Cert.ReferenceIdeal.Read.val_main_v29_eq (F := Ideal) _ _ _ _ _ _ _ _ _ _ _ _).trans (Cert.Proof.Bridge.result_eq m ρ c).symm

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
